-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S33554432 .f32 := Host.absf main_arg1
  let main_cst_0 : FVec F S_ .f32 := constant S_ .f32 0x7F800000#32
  let main_v5 : FVec F S33554432 .f32 := broadcastInDim S33554432 ![] bcast_S_S33554432 main_cst_0
  let main_v6 : IVec S33554432 1 := cmpf .olt main_v4 main_v5
  let main_c_1 : IVec S_ 1 := constantI S_ 1 1#1
  let main_v7 : IVec S_ 1 := (fun x v => Host.reduce IntOp.andi x v reducesTo_S33554432_S_d0 h_S_) main_v6 main_c_1
  let main_v8 : IVec S_ 1 := andi main_v3 main_v7
  main_v8
-- ==== Kernel.lean ====
abbrev S33554432 : Shape := ⟨1, ![33554432]⟩
abbrev S262144x128 : Shape := ⟨2, ![262144, 128]⟩
abbrev S8192x128 : Shape := ⟨2, ![8192, 128]⟩
abbrev S_ : Shape := ⟨0, ![]⟩

abbrev nBuf : Space → Nat
  | .hbm => 14
  | .vmem => 8
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S262144x128, .f32⟩
  | .hbm, ⟨3, _⟩ => ⟨S262144x128, .f32⟩
  | .hbm, ⟨4, _⟩ => ⟨S262144x128, .i32⟩
  | .hbm, ⟨5, _⟩ => ⟨S262144x128, .f32⟩
  | .hbm, ⟨6, _⟩ => ⟨S_, .i32⟩
  | .hbm, ⟨7, _⟩ => ⟨S262144x128, .i32⟩
  | .hbm, ⟨8, _⟩ => ⟨S262144x128, .i1⟩
  | .hbm, ⟨9, _⟩ => ⟨S262144x128, .i1⟩
  | .hbm, ⟨10, _⟩ => ⟨S33554432, .i1⟩
  | .hbm, ⟨11, _⟩ => ⟨S33554432, .f32⟩
  | .hbm, ⟨12, _⟩ => ⟨S_, .f32⟩
  | .hbm, ⟨13, _⟩ => ⟨S33554432, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .i32⟩
  | .local _ .vmem, ⟨5, _⟩ => ⟨S8192x128, .i32⟩
  | .local _ .vmem, ⟨6, _⟩ => ⟨S8192x128, .f32⟩
  | .local _ .vmem, ⟨7, _⟩ => ⟨S8192x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S33554432_S262144x128 : S33554432.ShapeCasts S262144x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  natLt_1_32 : 1 < 32
  bcast_S_S262144x128 : S_.BroadcastsInDim S262144x128 (![] : Fin 0 → Fin S262144x128.rank)
  shapeCasts_S262144x128_S33554432 : S262144x128.ShapeCasts S33554432
  bcast_S_S33554432 : S_.BroadcastsInDim S33554432 (![] : Fin 0 → Fin S33554432.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S262144x128.size a
  hwx0_2 : ∀ i : grid0.Coords, EltTy.bits .i32 = 32 ∨ (Rect.block (s := S262144x128) S8192x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S262144x128.size a
  hwx0_3 : ∀ i : grid0.Coords, EltTy.bits .f32 = 32 ∨ (Rect.block (s := S262144x128) S8192x128.size (cc0_transform_3 i) (hinb0_3 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8192x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where
  halias0_3 : Pipeline.Aliased win0 1 3

variable [Facts]
-- ==== ReferenceIdeal.lean ====
abbrev S33554432 : Shape := ⟨1, ![33554432]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S33554432, .f32⟩
  | .hbm, ⟨3, _⟩ => ⟨S_, .f32⟩
  | .hbm, ⟨4, _⟩ => ⟨S33554432, .f32⟩
  | .hbm, ⟨5, _⟩ => ⟨S33554432, .i1⟩
  | .hbm, ⟨6, _⟩ => ⟨S_, .f32⟩
  | .hbm, ⟨7, _⟩ => ⟨S33554432, .f32⟩
  | .hbm, ⟨8, _⟩ => ⟨S33554432, .f32⟩
  | .hbm, ⟨9, _⟩ => ⟨S33554432, .f32⟩
  | .hbm, ⟨10, _⟩ => ⟨S_, .f32⟩
  | .hbm, ⟨11, _⟩ => ⟨S33554432, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)

variable [Facts₀]

class Facts : Prop extends Facts₀ where

variable [Facts]
-- ==== Proof.Spec.lean ====
/-
  One step of a layer of integrate-and-fire neurons, as three functions of the input current and the membrane potential,
  element by element and over an array of any shape:

    charge = potential + current
    fires  = 1 where charge ≥ 1, else 0                    (the threshold is the float 1.0)
    rest   = charge − 1 where the neuron fires, else charge (reset by subtraction)

  and a fourth output that does not depend on the inputs, the traces, which the step leaves all zero.

  Each is a pointwise function, so it commutes with every re-laying of the array (a reshape reads the same elements in the
  same row-major order): computing on the reshaped inputs is reshaping the result. Nothing here is special to the reals:
  the statements hold for any reading of the float operations.
-/
import Idealize.ShloMosaic.PureOps
import Idealize.ShloMosaic.Lib.Pipeline.Value

noncomputable section

namespace Cert.Neuron

open Idealize.ShloMosaic

variable {F : FTy → Type} [FloatOps F] {s t : Shape}

/-- The threshold, and the amount a firing neuron loses: the float `1.0`. -/
def one : F .f32 := FloatOps.ofBits .f32 0x3F800000#32

/-- The potential after integrating the input current. -/
def charge (img pot : FVec F s .f32) : FVec F s .f32 := fun i => FloatOps.addf (pot i) (img i)

/-- Which neurons fire: those whose charge has reached the threshold. -/
def fires (img pot : FVec F s .f32) : IVec s 1 := fun i => FloatOps.cmpf .oge (charge img pot i) one

/-- The potential the step leaves: a firing neuron's charge less the threshold, any other's charge. -/
def rest (img pot : FVec F s .f32) : FVec F s .f32 :=
  fun i => Scalar.select (fires img pot i) (FloatOps.subf (charge img pot i) one) (charge img pot i)

/-- The traces after the step: zero everywhere. -/
def silent : FVec F s .f32 := fun _ => FloatOps.ofBits .f32 0x00000000#32

/-- The three as the vector operations that compute them. -/
theorem charge_eq (img pot : FVec F s .f32) : addf pot img = charge img pot := rfl
theorem fires_eq (img pot : FVec F s .f32) :
    cmpf .oge (charge img pot) (broadcast s (one (F := F))) = fires img pot := rfl
theorem rest_eq (img pot : FVec F s .f32) :
    select (fires img pot) (subf (charge img pot) (broadcast s (one (F := F)))) (charge img pot) = rest img pot := rfl

/-- Firing computed on re-laid inputs is the re-laid firing pattern. -/
theorem fires_shapeCast (img pot : FVec F s .f32) (h : s.ShapeCasts t) :
    fires (shapeCast t img h) (shapeCast t pot h) = shapeCast t (fires img pot) h := rfl

/-- The resting potential computed on re-laid inputs is the re-laid resting potential. -/
theorem rest_shapeCast (img pot : FVec F s .f32) (h : s.ShapeCasts t) :
    rest (shapeCast t img h) (shapeCast t pot h) = shapeCast t (rest img pot) h := rfl

/-- Re-laying the inputs, firing, and laying the pattern back out is firing. -/
theorem fires_there_and_back (img pot : FVec F s .f32) (h : s.ShapeCasts t) (h' : t.ShapeCasts s) :
    shapeCast s (fires (shapeCast t img h) (shapeCast t pot h)) h' = fires img pot := by
  rw [fires_shapeCast, shapeCast_shapeCast]

/-- Re-laying the inputs, stepping, and laying the potential back out is stepping. -/
theorem rest_there_and_back (img pot : FVec F s .f32) (h : s.ShapeCasts t) (h' : t.ShapeCasts s) :
    shapeCast s (rest (shapeCast t img h) (shapeCast t pot h)) h' = rest img pot := by
  rw [rest_shapeCast, shapeCast_shapeCast]

end Cert.Neuron

end
-- ==== Proof.KernelBlocks.lean ====
/-
  What the kernel leaves in its two output arrays, read as whole-array functions.

  The kernel walks a [262144, 128] array in 32 blocks of 8192 rows. At block `t` it reads block `t` of the current and of
  the potential, and writes block `t` of two outputs: the firing pattern, one 32-bit word per neuron (the bit
  zero-extended), and the resting potential. Every window has the same index map, block `t` at rows
  `8192·t … 8192·t + 8191`, so an element of an output block depends on the two inputs at the SAME array position, and
  each written block is the block of one pointwise function of the two whole input arrays. The 32 blocks tile the array
  (row `r` lies in block `r / 8192`), so after the last write-back each output array IS that function.
-/
import proofs.«142242_j41583873360169_2_alg».proof.Proof.Gen.KernelIdeal.Frame
import proofs.«142242_j41583873360169_2_alg».proof.Proof.Spec
import Idealize.ShloMosaic.Lib.Pipeline.Value

set_option maxRecDepth 16384

noncomputable section

namespace Cert.KernelIdeal.Step

open Idealize.ShloMosaic Idealize.ShloMosaic.TcCoe Idealize.SL.Sem
open Cert.KernelIdeal Cert.KernelIdeal.Gen Cert.Neuron
open Idealize.ShloMosaic.Pipeline (Dat)

variable {F : FTy → Type} [FloatOps F]
variable (m : (ℓ : Loc nD τ sig) → Buf (Elt F) ℓ) (ρ : Dev nD → PrngReg)

/-- The body's loads and stores start at the block's origin. -/
theorem origin : (![0, 0] : Fin 2 → Nat) = fun _ => 0 := funext fun a => by fin_cases a <;> rfl

/-! ## The body's arithmetic on one block -/

/-- The sum the body forms is the charge: the potential's block plus the current's. -/
theorem pay_charge (pot img : Vec F S8192x128 .f32) : k0_pay1 pot img = charge img pot := by
  unfold k0_pay1
  simp only [shapeCast_self]
  rfl

/-- Its comparison with the threshold is the firing pattern. -/
theorem pay_fires (pot img : Vec F S8192x128 .f32) : k0_pay2 pot img = fires img pot := by
  unfold k0_pay2
  rw [pay_charge]
  rfl

/-- The value it stores in the potential's output block is the resting potential. -/
theorem pay_rest (pot img : Vec F S8192x128 .f32) : k0_pay3 pot img = rest img pot := by
  unfold k0_pay3
  rw [pay_fires, pay_charge]
  rfl

/-- The value it stores in the pattern's output block is the pattern, each bit a 32-bit word. -/
theorem pay_word (pot img : Vec F S8192x128 .f32) : k0_pay4 pot img = extui 32 (fires img pot) natLt_1_32 := by
  unfold k0_pay4
  rw [pay_fires]

/-! ## The four windows move together -/

/-- Every window's block at point `t` sits at the same place: block row `t`, block column `0`. -/
theorem same_place : ∀ t : Fin cfg0.N,
    win0_0.index t (0 : Fin 2) = win0_2.index t (0 : Fin 2) ∧ win0_0.index t (1 : Fin 2) = win0_2.index t (1 : Fin 2)
    ∧ win0_1.index t (0 : Fin 2) = win0_2.index t (0 : Fin 2) ∧ win0_1.index t (1 : Fin 2) = win0_2.index t (1 : Fin 2)
    ∧ win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2) :=
  (by decide +kernel : ∀ t : Fin grid0.N, _)

/-- Every block row of the pattern's array is some point's. -/
theorem block_row_onto2 : ∀ q : Fin 32, ∃ t : Fin cfg0.N, win0_2.index t = ![q.val, 0] :=
  (by decide +kernel : ∀ q : Fin 32, ∃ t : Fin grid0.N, win0_2.index t = ![q.val, 0])

/-- Every block row of the potential's output array is some point's. -/
theorem block_row_onto3 : ∀ q : Fin 32, ∃ t : Fin cfg0.N, win0_3.index t = ![q.val, 0] :=
  (by decide +kernel : ∀ q : Fin 32, ∃ t : Fin grid0.N, win0_3.index t = ![q.val, 0])

/-! ## The firing pattern's array (window 2) -/

/-- What point `t` writes back to the pattern's array is block `t` of the pattern of the two whole input arrays. -/
theorem flushed2_eq (c : Dev nD) (t : Fin cfg0.N) :
    (dats m 0 c).flushed 2 t
      = ((cfg0.win 2).blk t).view.read (Elt F) (extui 32 (fires (V m c main_v0) (V m c main_v1)) natLt_1_32) := by
  show (cfg0.win 2).cut (grid0.coords t) ((dats m 0 c).after 2 t) = _
  rw [after0_2]
  unfold out0_2
  rw [View.canon_unit_zero origin]
  simp only [View.ld_unit_zero (S := S8192x128) origin]
  rw [pay_word]
  obtain ⟨e0, e1, e2, e3, -, -, -, -⟩ := same_place t
  funext j
  show (FloatOps.cmpf .oge (FloatOps.addf (V m c main_v1 (((cfg0.win 1).blk t).view.emb j)) (V m c main_v0 (((cfg0.win 0).blk t).view.emb j))) one).setWidth 32
    = (FloatOps.cmpf .oge (FloatOps.addf (V m c main_v1 (((cfg0.win 2).blk t).view.emb j)) (V m c main_v0 (((cfg0.win 2).blk t).view.emb j))) one).setWidth 32
  have h0 : ((cfg0.win 0).blk t).view.emb j = ((cfg0.win 2).blk t).view.emb j := by
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 8192 + 1 * (j 0).val = win0_2.index t (0 : Fin 2) * 8192 + 1 * (j 0).val; omega
    | ⟨1, _⟩ => show win0_1.index t (1 : Fin 2) * 128 + 1 * (j 1).val = win0_2.index t (1 : Fin 2) * 128 + 1 * (j 1).val; omega
  rw [h0, h1]

/-- An index of the pattern's array is in point `t`'s block when each coordinate is in the block's range. -/
theorem mem_blk2 (t : Fin cfg0.N) (i : S262144x128.Idx) :
    i ∈ ((cfg0.win 2).blk t).view.set ↔ ∀ a : Fin 2, win0_2.index t a * S8192x128.size a ≤ (i a).val ∧ (i a).val < win0_2.index t a * S8192x128.size a + S8192x128.size a := by
  show i ∈ ((View.whole main_v2_0).slice (win0_2.rect t)).set ↔ _
  rw [View.set_slice_whole, Rect.mem_set_unit]
  exact Iff.rfl

/-- The blocks tile the array: row `r` is in block `r / 8192`. -/
theorem cover2 (i : S262144x128.Idx) :
    ∃ t : Fin cfg0.N, (cfg0.win 2).flush t = true ∧ i ∈ ((cfg0.win 2).blk t).view.set := by
  have hi0 : (i 0).val < 262144 := (i 0).isLt
  have hi1 : (i 1).val < 128 := (i 1).isLt
  obtain ⟨t, ht⟩ := block_row_onto2 ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mem_blk2]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 128 ≤ (i 1).val ∧ (i 1).val < win0_2.index t (1 : Fin 2) * 128 + 128; omega

/-- After the last write-back the pattern's array is the pattern of the two input arrays, a word per neuron. -/
theorem final2 (c : Dev nD) :
    (dats m 0 c).arrAt 2 cfg0.N = extui 32 (fires (V m c main_v0) (V m c main_v1)) natLt_1_32 :=
  (dats m 0 c).arrAt_eq_of_cover 2 _ (fun t _ => flushed2_eq m c t) cover2

/-! ## The resting potential's array (window 3) -/

/-- What point `t` writes back to the potential's output array is block `t` of the resting potential of the two whole
    input arrays. -/
theorem flushed3_eq (c : Dev nD) (t : Fin cfg0.N) :
    (dats m 0 c).flushed 3 t = ((cfg0.win 3).blk t).view.read (Elt F) (rest (V m c main_v0) (V m c main_v1)) := by
  show (cfg0.win 3).cut (grid0.coords t) ((dats m 0 c).after 3 t) = _
  rw [after0_3]
  unfold out0_3
  rw [View.canon_unit_zero origin]
  simp only [View.ld_unit_zero (S := S8192x128) origin]
  rw [pay_rest]
  obtain ⟨-, -, -, -, e0, e1, e2, e3⟩ := same_place t
  funext j
  show rest (fun y => V m c main_v0 (((cfg0.win 0).blk t).view.emb y)) (fun y => V m c main_v1 (((cfg0.win 1).blk t).view.emb y)) j
    = rest (V m c main_v0) (V m c main_v1) (((cfg0.win 3).blk t).view.emb j)
  have h0 : ((cfg0.win 0).blk t).view.emb j = ((cfg0.win 3).blk t).view.emb j := by
    funext a; apply Fin.ext
    match a with
    | ⟨0, _⟩ => show win0_0.index t (0 : Fin 2) * 8192 + 1 * (j 0).val = win0_3.index t (0 : Fin 2) * 8192 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb j = ((cfg0.win 3).blk t).view.emb j := by
    funext a; apply Fin.ext
    match a with
    | ⟨0, _⟩ => show win0_1.index t (0 : Fin 2) * 8192 + 1 * (j 0).val = win0_3.index t (0 : Fin 2) * 8192 + 1 * (j 0).val; omega
    | ⟨1, _⟩ => show win0_1.index t (1 : Fin 2) * 128 + 1 * (j 1).val = win0_3.index t (1 : Fin 2) * 128 + 1 * (j 1).val; omega
  show Scalar.select (FloatOps.cmpf .oge (FloatOps.addf (V m c main_v1 (((cfg0.win 1).blk t).view.emb j)) (V m c main_v0 (((cfg0.win 0).blk t).view.emb j))) one)
      (FloatOps.subf (FloatOps.addf (V m c main_v1 (((cfg0.win 1).blk t).view.emb j)) (V m c main_v0 (((cfg0.win 0).blk t).view.emb j))) one)
      (FloatOps.addf (V m c main_v1 (((cfg0.win 1).blk t).view.emb j)) (V m c main_v0 (((cfg0.win 0).blk t).view.emb j))) = _
  rw [h0, h1]
  rfl

/-- An index of the potential's output array is in point `t`'s block when each coordinate is in the block's range. -/
theorem mem_blk3 (t : Fin cfg0.N) (i : S262144x128.Idx) :
    i ∈ ((cfg0.win 3).blk t).view.set ↔ ∀ a : Fin 2, win0_3.index t a * S8192x128.size a ≤ (i a).val ∧ (i a).val < win0_3.index t a * S8192x128.size a + S8192x128.size a := by
  show i ∈ ((View.whole main_v2_1).slice (win0_3.rect t)).set ↔ _
  rw [View.set_slice_whole, Rect.mem_set_unit]
  exact Iff.rfl

/-- The blocks tile the array: row `r` is in block `r / 8192`. -/
theorem cover3 (i : S262144x128.Idx) :
    ∃ t : Fin cfg0.N, (cfg0.win 3).flush t = true ∧ i ∈ ((cfg0.win 3).blk t).view.set := by
  have hi0 : (i 0).val < 262144 := (i 0).isLt
  have hi1 : (i 1).val < 128 := (i 1).isLt
  obtain ⟨t, ht⟩ := block_row_onto3 ⟨(i 0).val / 8192, by omega⟩
  have q0 : win0_3.index t (0 : Fin 2) = (i 0).val / 8192 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 8192 ≤ (i 0).val ∧ (i 0).val < win0_3.index t (0 : Fin 2) * 8192 + 8192; omega
  | ⟨1, _⟩ => show win0_3.index t (1 : Fin 2) * 128 ≤ (i 1).val ∧ (i 1).val < win0_3.index t (1 : Fin 2) * 128 + 128; omega

/-- After the last write-back the potential's output array is the resting potential of the two input arrays. -/
theorem final3 (c : Dev nD) :
    (dats m 0 c).arrAt 3 cfg0.N = rest (V m c main_v0) (V m c main_v1) :=
  (dats m 0 c).arrAt_eq_of_cover 3 _ (fun t _ => flushed3_eq m c t) cover3

end Cert.KernelIdeal.Step

end
-- ==== Proof.LibMaskWord.lean ====
/-
  A one-bit mask that travels as a 32-bit word.

  A comparison's result is one bit per element. Stored in a buffer of 32-bit words it is zero-extended (the word is
  `0` or `1`), and the reader recovers the bit by asking whether the word differs from zero. The round trip is the
  identity on every mask, of any shape: a bit is `0` or `1`, its extension is the word `0` or the word `1`, and only the
  second differs from the zero word.
-/
import Idealize.ShloMosaic.PureOps

namespace Idealize.ShloMosaic.MaskWord

open Idealize.ShloMosaic

/-- One bit, zero-extended to a 32-bit word and compared with the zero word for inequality, is the bit. -/
theorem ne_zero_setWidth (b : BitVec 1) : IntOp.cmpi .ne (b.setWidth 32) 0#32 = b := by
  rcases BitVec.eq_zero_or_eq_one b with h | h <;> subst h <;> decide

/-- A mask of any shape, zero-extended element by element to 32-bit words and compared with an all-zero vector for
    inequality, is the mask. -/
theorem cmpi_ne_extui_zero {s : Shape} (b : IVec s 1) (h : 1 < 32) (z : IVec s 32) (hz : ∀ i, z i = 0#32) :
    cmpi .ne (extui 32 b h) z = b := by
  funext i
  show IntOp.cmpi .ne ((b i).setWidth 32) (z i) = b i
  rw [hz i]
  exact ne_zero_setWidth (b i)

end Idealize.ShloMosaic.MaskWord
-- ==== Proof.KernelRun.lean ====
/-
  The kernel's program from start to end, read as values.

  Before the kernel runs, the host re-lays the two flat arguments of 33554432 elements as [262144, 128] arrays (the same
  elements in the same row-major order). After it, the host turns the pattern's words back into bits (a word differs from
  zero exactly when its bit was set), re-lays pattern and potential flat again, and fills the traces with zeros. A
  pointwise function commutes with a re-laying, and re-laying there and back is the identity, so the three results are
  the step's three functions of the flat arguments themselves.
-/
import proofs.«142242_j41583873360169_2_alg».proof.Proof.KernelBlocks
import proofs.«142242_j41583873360169_2_alg».proof.Proof.LibMaskWord
import Idealize.ShloMosaic.Lib.StableHlo.Run

set_option maxRecDepth 16384

noncomputable section

namespace Cert.KernelIdeal.Step

open Idealize.ShloMosaic Idealize.ShloMosaic.TcCoe Idealize.SL.Sem
open Cert.KernelIdeal Cert.KernelIdeal.Gen Cert.Neuron
open Idealize.ShloMosaic.Pipeline (Dat)
open Idealize.ShloMosaic.StableHlo

variable {F : FTy → Type} [FloatOps F]
variable (m : (ℓ : Loc nD τ sig) → Buf (Elt F) ℓ) (ρ : Dev nD → PrngReg)

/-! ## The arrays the kernel finds -/

/-- The current's array, as the kernel finds it, is the first argument re-laid. -/
theorem entry_img (c : Dev nD) :
    (V m c main_v0 : S262144x128.Idx → F .f32)
      = shapeCast S262144x128 (m ((c : Thread nD τ).loc main_arg0)) shapeCasts_S33554432_S262144x128 := by
  show StableHlo.after hostOps0 (fun b => m (c, b)) (Proc.devRef .tc main_v0) = _
  after_results
  rfl

/-- The potential's array, as the kernel finds it, is the second argument re-laid. -/
theorem entry_pot (c : Dev nD) :
    (V m c main_v1 : S262144x128.Idx → F .f32)
      = shapeCast S262144x128 (m ((c : Thread nD τ).loc main_arg1)) shapeCasts_S33554432_S262144x128 := by
  show StableHlo.after hostOps0 (fun b => m (c, b)) (Proc.devRef .tc main_v1) = _
  after_results
  rfl

/-! ## The arrays the kernel leaves, as the host lines after it read them -/

/-- The pattern's array, where the later host lines read it: the pattern of the re-laid arguments, a word per neuron. -/
theorem left_words (c : Dev nD) :
    Pipeline.withArrays (cfgs 0).spec c (V0 m c) (fun w => (dats m 0 c).arrAt w (cfgs 0).N) (Proc.devRef .tc main_v2_0)
      = extui 32 (fires (shapeCast S262144x128 (m ((c : Thread nD τ).loc main_arg0)) shapeCasts_S33554432_S262144x128)
          (shapeCast S262144x128 (m ((c : Thread nD τ).loc main_arg1)) shapeCasts_S33554432_S262144x128)) natLt_1_32 := by
  refine (Pipeline.withArrays_arr spec0 launch0.win.arr_inj c (V0 m c) (fun w => (dats m 0 c).arrAt w cfg0.N) 2).trans ?_
  rw [final2, entry_img, entry_pot]

/-- The potential's output array, where the later host lines read it: the resting potential of the re-laid arguments. -/
theorem left_rest (c : Dev nD) :
    Pipeline.withArrays (cfgs 0).spec c (V0 m c) (fun w => (dats m 0 c).arrAt w (cfgs 0).N) (Proc.devRef .tc main_v2_1)
      = rest (shapeCast S262144x128 (m ((c : Thread nD τ).loc main_arg0)) shapeCasts_S33554432_S262144x128)
          (shapeCast S262144x128 (m ((c : Thread nD τ).loc main_arg1)) shapeCasts_S33554432_S262144x128) := by
  refine (Pipeline.withArrays_arr spec0 launch0.win.arr_inj c (V0 m c) (fun w => (dats m 0 c).arrAt w cfg0.N) 3).trans ?_
  rw [final3, entry_img, entry_pot]

/-! ## The three results -/

/-- The first result: which neurons fire, of the flat arguments. -/
theorem result_fires (c : Dev nD) :
    Pipeline.afterTail₀ cfgs (dats m) 0 (V0 m) [hostOps1] c main_v6
      = fires (m ((c : Thread nD τ).loc main_arg0)) (m ((c : Thread nD τ).loc main_arg1)) := by
  unfold Pipeline.afterTail₀
  show StableHlo.after hostOps1 _ (Proc.devRef .tc main_v6) = _
  after_results
  rw [left_words]
  show shapeCast S33554432 (cmpi .ne (extui 32 (fires (shapeCast S262144x128 _ _) (shapeCast S262144x128 _ _)) natLt_1_32)
      (broadcastInDim S262144x128 ![] bcast_S_S262144x128 (constantI S_ 32 0#32))) shapeCasts_S262144x128_S33554432 = _
  rw [MaskWord.cmpi_ne_extui_zero _ natLt_1_32 (broadcastInDim S262144x128 ![] bcast_S_S262144x128 (constantI S_ 32 0#32))
      (fun _ => rfl), fires_there_and_back]

/-- The third result: the resting potential, of the flat arguments. -/
theorem result_rest (c : Dev nD) :
    Pipeline.afterTail₀ cfgs (dats m) 0 (V0 m) [hostOps1] c main_v7
      = rest (m ((c : Thread nD τ).loc main_arg0)) (m ((c : Thread nD τ).loc main_arg1)) := by
  unfold Pipeline.afterTail₀
  show StableHlo.after hostOps1 _ (Proc.devRef .tc main_v7) = _
  after_results
  rw [left_rest]
  show shapeCast S33554432 (rest (shapeCast S262144x128 _ _) (shapeCast S262144x128 _ _)) shapeCasts_S262144x128_S33554432 = _
  rw [rest_there_and_back]

/-- The second result: the traces, all zero. -/
theorem result_silent (c : Dev nD) :
    Pipeline.afterTail₀ cfgs (dats m) 0 (V0 m) [hostOps1] c main_v8 = (silent : FVec F S33554432 .f32) := by
  unfold Pipeline.afterTail₀
  show StableHlo.after hostOps1 _ (Proc.devRef .tc main_v8) = _
  after_results
  rfl

/-! ## The run -/

/-- Every weakly fair execution of the program terminates with the three results at the step's three functions of the
    arguments, and the arguments as they were. -/
theorem run : θ_run defs (onTc (τ := τ) (main (F := F))) ⟨m, fun _ => 0, ρ⟩ fun r => ∀ c : Dev nD,
      r.2.mem ((c.tc : Thread nD τ).loc main_v6) = fires (m ((c.tc : Thread nD τ).loc main_arg0)) (m ((c.tc : Thread nD τ).loc main_arg1))
      ∧ r.2.mem ((c.tc : Thread nD τ).loc main_v8) = (silent : FVec F S33554432 .f32)
      ∧ r.2.mem ((c.tc : Thread nD τ).loc main_v7) = rest (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v6 (Pipeline.mem_restRefs_of main_v6 (by decide) (by decide))).trans (result_fires m c),
     ((h c).2 main_v8 (Pipeline.mem_restRefs_of main_v8 (by decide) (by decide))).trans (result_silent m c),
     ((h c).2 main_v7 (Pipeline.mem_restRefs_of main_v7 (by decide) (by decide))).trans (result_rest m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Step

end
-- ==== Proof.RefRun.lean ====
/-
  The reference program, read as values: it computes the step's three functions directly on the flat arrays — the sum
  `potential + current`, its comparison with `1.0`, the choice between the sum less `1.0` and the sum, and a constant zero
  array —, so each of its results is, element by element, the corresponding function of the arguments.
-/
import proofs.«142242_j41583873360169_2_alg».proof.Proof.Gen.ReferenceIdeal.Read
import proofs.«142242_j41583873360169_2_alg».proof.Proof.Spec

noncomputable section

namespace Cert.ReferenceIdeal.Step

open Idealize.ShloMosaic Idealize.ShloMosaic.TcCoe Idealize.SL.Sem
open Cert.ReferenceIdeal Cert.ReferenceIdeal.Gen Cert.ReferenceIdeal.Read Cert.Neuron

variable {F : FTy → Type} [FloatOps F]

/-- The reference's sum is the charge. -/
theorem sum_eq (img pot : FVec F S33554432 .f32) : val_main_v0 (F := F) img pot = charge img pot := by
  funext i
  rw [val_main_v0_apply]
  rfl

/-- Its comparison is the firing pattern. -/
theorem cmp_eq (img pot : FVec F S33554432 .f32) : val_main_v2 (F := F) img pot = fires img pot := by
  funext i
  rw [val_main_v2_apply, val_main_v1_apply, val_main_cst_apply, sum_eq]
  rfl

/-- Its choice is the resting potential. -/
theorem choice_eq (img pot : FVec F S33554432 .f32) : val_main_v5 (F := F) img pot = rest img pot := by
  funext i
  rw [val_main_v5_apply, val_main_v4_apply, val_main_v3_apply, val_main_cst_0_apply, cmp_eq, sum_eq]
  rfl

/-- Its constant array is the zero traces. -/
theorem zeros_eq : val_main_v6 (F := F) = (silent : FVec F S33554432 .f32) := by
  funext i
  rw [val_main_v6_apply, val_main_cst_1_apply]
  rfl

/-- Every weakly fair execution of the reference terminates with its three results at the step's three functions of the
    arguments, and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = fires (m ((c.tc : Thread nD τ).loc main_arg0)) (m ((c.tc : Thread nD τ).loc main_arg1))
      ∧ r.2.mem ((c.tc : Thread nD τ).loc main_v6) = (silent : FVec F S33554432 .f32)
      ∧ r.2.mem ((c.tc : Thread nD τ).loc main_v5) = rest (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).1.trans (val_main_v2_eq _ _)).trans (cmp_eq _ _),
     ((h c).2.1.trans val_main_v6_eq).trans zeros_eq,
     ((h c).2.2.1.trans (val_main_v5_eq _ _)).trans (choice_eq _ _),
     (h c).2.2.2.1, (h c).2.2.2.2⟩)
    (Cert.ReferenceIdeal.Value.run (F := F) m ρ)

end Cert.ReferenceIdeal.Step

end
-- ==== Proof.lean ====
/-
  One step of a layer of integrate-and-fire neurons: the kernel against its array-language reference.

  Both programs take the input current and the membrane potential, 33554432 floats each, and return which neurons fire
  (`potential + current ≥ 1`), an all-zero trace array, and the resting potential (the sum, less `1` where the neuron
  fires). The reference computes this directly on the flat arrays. The kernel re-lays the arrays as [262144, 128], walks
  them in 32 blocks of 8192 rows computing the same pointwise functions block by block (the firing pattern travelling as
  32-bit words), and the host lays the results flat again.

  The two agree as functions of the arguments, for every reading of the float operations and so in particular over the
  extended reals: each output element depends on the two inputs at the same position through the same three operations in
  the same order, and a re-laying only moves positions. No algebraic law is used, and no input needs to be finite for the
  results to agree; the precondition is not opened.

    Proof/Spec.lean          the step's functions, pointwise, and that they commute with a re-laying
    Proof/LibMaskWord.lean   a bit zero-extended to a word is recovered by "differs from zero"
    Proof/KernelBlocks.lean  each output array after the kernel is one function of the two input arrays
    Proof/KernelRun.lean     the host lines around the kernel; the kernel program's three results
    Proof/RefRun.lean        the reference's three results
-/
import proofs.«142242_j41583873360169_2_alg».proof.Defs
import proofs.«142242_j41583873360169_2_alg».proof.Proof.Gen.Kernel
import proofs.«142242_j41583873360169_2_alg».proof.Proof.Gen.Kernel.Frame
import proofs.«142242_j41583873360169_2_alg».proof.Proof.Gen.KernelIdeal
import proofs.«142242_j41583873360169_2_alg».proof.Proof.Gen.KernelIdeal.Frame
import proofs.«142242_j41583873360169_2_alg».proof.Proof.Gen.ReferenceIdeal
import proofs.«142242_j41583873360169_2_alg».proof.Proof.Gen.ReferenceIdeal.Run
import proofs.«142242_j41583873360169_2_alg».proof.Proof.Gen.ReferenceIdeal.Read
import proofs.«142242_j41583873360169_2_alg».proof.Proof.Gen.Pre_finite_inputs
import proofs.«142242_j41583873360169_2_alg».proof.Proof.KernelRun
import proofs.«142242_j41583873360169_2_alg».proof.Proof.RefRun

noncomputable section

namespace Cert.Proof

open Idealize.ShloMosaic Idealize.ShloMosaic.TcCoe Idealize.SL.Sem Cert.Neuron

/-- The kernel program as printed runs to the end and leaves its arguments as they were. -/
theorem frame_kernel : Cert.frame_Kernel := fun m ρ _ => Cert.Kernel.Gen.frame m ρ

/-- So does its reading over the extended reals. -/
theorem frame_ideal : Cert.frame_KernelIdeal := fun m ρ _ => Cert.KernelIdeal.Gen.frame m ρ

/-- So does the reference: its run, with what it says of the results dropped. -/
theorem frame_reference : Cert.frame_ReferenceIdeal := fun m ρ _ =>
  (θ_run Cert.ReferenceIdeal.defs _ _).mono (fun _ h c => (h c).2.2.2)
    (Cert.ReferenceIdeal.Value.run (F := Ideal) m ρ)

/-- Reading the kernel over the extended reals rewrote none of its operations: there is nothing to justify. -/
theorem preserves : Cert.preserves_Kernel_KernelIdeal := trivial

/-- From memories that agree on the two arguments, both programs end with the firing pattern, the zero traces and the
    resting potential of those arguments. -/
theorem algebraic : Cert.algebraic_KernelIdeal_ReferenceIdeal := by
  intro m ρ m' ρ' _ hagree
  refine ⟨_, _, _, Cert.KernelIdeal.Step.run (F := Ideal) m ρ, ?_⟩
  refine (θ_run Cert.ReferenceIdeal.defs _ _).mono (fun _ h c => ?_) (Cert.ReferenceIdeal.Step.run (F := Ideal) m' ρ')
  obtain ⟨h1, h2, h3, h4, h5⟩ := h c
  refine ⟨?_, h2, ?_, h4, h5⟩
  · rw [h1, (hagree c).1, (hagree c).2]
  · rw [h3, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
